-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S5794x2897 : Shape := ⟨2, ![5794, 2897]⟩
abbrev S2897x5794 : Shape := ⟨2, ![2897, 5794]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5794x2897 : S_.BroadcastsInDim S5794x2897 (![] : Fin 0 → Fin S5794x2897.rank)
  reducesTo_S5794x2897_S_d0_1 : S5794x2897.ReducesTo [0, 1] S_
  bcast_S_S2897x5794 : S_.BroadcastsInDim S2897x5794 (![] : Fin 0 → Fin S2897x5794.rank)
  reducesTo_S2897x5794_S_d0_1 : S2897x5794.ReducesTo [0, 1] S_

variable [Facts]

def fn {F : FTy → Type} [FloatOps F] (main_arg0 : FVec F S4096x2048 .f32) (main_arg1 : FVec F S5794x2897 .f32) (main_arg2 : FVec F S2897x5794 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S5794x2897 .f32 := Host.absf main_arg1
  let main_cst_0 : FVec F S_ .f32 := constant S_ .f32 0x7F800000#32
  let main_v5 : FVec F S5794x2897 .f32 := broadcastInDim S5794x2897 ![] bcast_S_S5794x2897 main_cst_0
  let main_v6 : IVec S5794x2897 1 := cmpf .olt main_v4 main_v5
  let main_c_1 : IVec S_ 1 := constantI S_ 1 1#1
  let main_v7 : IVec S_ 1 := (fun x v => Host.reduce IntOp.andi x v reducesTo_S5794x2897_S_d0_1 h_S_) main_v6 main_c_1
  let main_v8 : IVec S_ 1 := andi main_v3 main_v7
  let main_v9 : FVec F S2897x5794 .f32 := Host.absf main_arg2
  let main_cst_2 : FVec F S_ .f32 := constant S_ .f32 0x7F800000#32
  let main_v10 : FVec F S2897x5794 .f32 := broadcastInDim S2897x5794 ![] bcast_S_S2897x5794 main_cst_2
  let main_v11 : IVec S2897x5794 1 := cmpf .olt main_v9 main_v10
  let main_c_3 : IVec S_ 1 := constantI S_ 1 1#1
  let main_v12 : IVec S_ 1 := (fun x v => Host.reduce IntOp.andi x v reducesTo_S2897x5794_S_d0_1 h_S_) main_v11 main_c_3
  let main_v13 : IVec S_ 1 := andi main_v8 main_v12
  main_v13
-- ==== Kernel.lean ====
abbrev S4096x2048 : Shape := ⟨2, ![4096, 2048]⟩
abbrev S5794x2897 : Shape := ⟨2, ![5794, 2897]⟩
abbrev S2897x5794 : Shape := ⟨2, ![2897, 5794]⟩
abbrev S_ : Shape := ⟨0, ![]⟩
abbrev S6144x2944 : Shape := ⟨2, ![6144, 2944]⟩
abbrev S2944x6144 : Shape := ⟨2, ![2944, 6144]⟩
abbrev S6144x6144 : Shape := ⟨2, ![6144, 6144]⟩
abbrev S2048x2944 : Shape := ⟨2, ![2048, 2944]⟩
abbrev S2944x512 : Shape := ⟨2, ![2944, 512]⟩
abbrev S2048x512 : Shape := ⟨2, ![2048, 512]⟩
abbrev S5794x5794 : Shape := ⟨2, ![5794, 5794]⟩
abbrev S33570436 : Shape := ⟨1, ![33570436]⟩
abbrev S33564672 : Shape := ⟨1, ![33564672]⟩
abbrev S8388608 : Shape := ⟨1, ![8388608]⟩
abbrev S4096 : Shape := ⟨1, ![4096]⟩
abbrev S16777216 : Shape := ⟨1, ![16777216]⟩
abbrev S4096x4096 : Shape := ⟨2, ![4096, 4096]⟩
abbrev S2048x4096 : Shape := ⟨2, ![2048, 4096]⟩
abbrev S2048 : Shape := ⟨1, ![2048]⟩
abbrev S1x4096 : Shape := ⟨2, ![1, 4096]⟩
abbrev S512x2048 : Shape := ⟨2, ![512, 2048]⟩
abbrev S1x512 : Shape := ⟨2, ![1, 512]⟩
abbrev S512x512 : Shape := ⟨2, ![512, 512]⟩
abbrev S512x4096 : Shape := ⟨2, ![512, 4096]⟩
abbrev S1x2048 : Shape := ⟨2, ![1, 2048]⟩

abbrev nBuf : Space → Nat
  | .hbm => 30
  | .vmem => 30
  | .smem => 0
  | _ => 0

abbrev bufTy : (tb : Table) → Fin (tcTables nBuf tb) → BufTy
  | .hbm, ⟨0, _⟩ => ⟨S4096x2048, .f32⟩
  | .hbm, ⟨1, _⟩ => ⟨S5794x2897, .f32⟩
  | .hbm, ⟨2, _⟩ => ⟨S2897x5794, .f32⟩
  | .hbm, ⟨3, _⟩ => ⟨S5794x2897, .bf16⟩
  | .hbm, ⟨4, _⟩ => ⟨S_, .i32⟩
  | .hbm, ⟨5, _⟩ => ⟨S_, .bf16⟩
  | .hbm, ⟨6, _⟩ => ⟨S6144x2944, .bf16⟩
  | .hbm, ⟨7, _⟩ => ⟨S2897x5794, .bf16⟩
  | .hbm, ⟨8, _⟩ => ⟨S_, .i32⟩
  | .hbm, ⟨9, _⟩ => ⟨S_, .bf16⟩
  | .hbm, ⟨10, _⟩ => ⟨S2944x6144, .bf16⟩
  | .hbm, ⟨11, _⟩ => ⟨S6144x6144, .f32⟩
  | .hbm, ⟨12, _⟩ => ⟨S5794x5794, .f32⟩
  | .hbm, ⟨13, _⟩ => ⟨S33570436, .f32⟩
  | .hbm, ⟨14, _⟩ => ⟨S33564672, .f32⟩
  | .hbm, ⟨15, _⟩ => ⟨S8388608, .f32⟩
  | .hbm, ⟨16, _⟩ => ⟨S4096x2048, .f32⟩
  | .hbm, ⟨17, _⟩ => ⟨S4096, .f32⟩
  | .hbm, ⟨18, _⟩ => ⟨S16777216, .f32⟩
  | .hbm, ⟨19, _⟩ => ⟨S4096x4096, .f32⟩
  | .hbm, ⟨20, _⟩ => ⟨S4096, .f32⟩
  | .hbm, ⟨21, _⟩ => ⟨S8388608, .f32⟩
  | .hbm, ⟨22, _⟩ => ⟨S2048x4096, .f32⟩
  | .hbm, ⟨23, _⟩ => ⟨S2048, .f32⟩
  | .hbm, ⟨24, _⟩ => ⟨S1x4096, .f32⟩
  | .hbm, ⟨25, _⟩ => ⟨S4096x4096, .bf16⟩
  | .hbm, ⟨26, _⟩ => ⟨S1x4096, .f32⟩
  | .hbm, ⟨27, _⟩ => ⟨S4096x4096, .bf16⟩
  | .hbm, ⟨28, _⟩ => ⟨S1x2048, .f32⟩
  | .hbm, ⟨29, _⟩ => ⟨S4096x2048, .f32⟩
  | .local _ .vmem, ⟨0, _⟩ => ⟨S2048x2944, .bf16⟩
  | .local _ .vmem, ⟨1, _⟩ => ⟨S2048x2944, .bf16⟩
  | .local _ .vmem, ⟨2, _⟩ => ⟨S2944x512, .bf16⟩
  | .local _ .vmem, ⟨3, _⟩ => ⟨S2944x512, .bf16⟩
  | .local _ .vmem, ⟨4, _⟩ => ⟨S2048x512, .f32⟩
  | .local _ .vmem, ⟨5, _⟩ => ⟨S2048x512, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x512, .f32⟩
  | .local _ .vmem, ⟨11, _⟩ => ⟨S1x512, .f32⟩
  | .local _ .vmem, ⟨12, _⟩ => ⟨S512x512, .bf16⟩
  | .local _ .vmem, ⟨13, _⟩ => ⟨S512x512, .bf16⟩
  | .local _ .vmem, ⟨14, _⟩ => ⟨S512x4096, .bf16⟩
  | .local _ .vmem, ⟨15, _⟩ => ⟨S512x4096, .bf16⟩
  | .local _ .vmem, ⟨16, _⟩ => ⟨S512x4096, .f32⟩
  | .local _ .vmem, ⟨17, _⟩ => ⟨S512x4096, .f32⟩
  | .local _ .vmem, ⟨18, _⟩ => ⟨S1x512, .f32⟩
  | .local _ .vmem, ⟨19, _⟩ => ⟨S1x512, .f32⟩
  | .local _ .vmem, ⟨20, _⟩ => ⟨S512x512, .bf16⟩
  | .local _ .vmem, ⟨21, _⟩ => ⟨S512x512, .bf16⟩
  | .local _ .vmem, ⟨22, _⟩ => ⟨S512x4096, .bf16⟩
  | .local _ .vmem, ⟨23, _⟩ => ⟨S512x4096, .bf16⟩
  | .local _ .vmem, ⟨24, _⟩ => ⟨S512x4096, .f32⟩
  | .local _ .vmem, ⟨25, _⟩ => ⟨S512x4096, .f32⟩
  | .local _ .vmem, ⟨26, _⟩ => ⟨S1x512, .f32⟩
  | .local _ .vmem, ⟨27, _⟩ => ⟨S1x512, .f32⟩
  | .local _ .vmem, ⟨28, _⟩ => ⟨S512x512, .f32⟩
  | .local _ .vmem, ⟨29, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨2, ![3, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2944x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  bitsLt_bf16_f32 : FTy.bits .bf16 < FTy.bits .f32
  pads_S5794x2897_S6144x2944_03500_0470 : S5794x2897.Pads (![0, 0] : Fin 2 → Nat) ![350, 47] ![0, 0] S6144x2944
  h_S_ : 0 < S_.numel
  pads_S2897x5794_S2944x6144_0470_03500 : S2897x5794.Pads (![0, 0] : Fin 2 → Nat) ![47, 350] ![0, 0] S2944x6144
  inb_S2048x2944_S2048x2944_0_0 : ∀ a, (![0, 0] : Fin 2 → Nat) a + S2048x2944.size a ≤ S2048x2944.size a
  h_S2048x2944 : 0 < S2048x2944.numel
  shapeCasts_S2048x2944_S2048x2944 : S2048x2944.ShapeCasts S2048x2944
  inb_S2944x512_S2944x512_0_0 : ∀ a, (![0, 0] : Fin 2 → Nat) a + S2944x512.size a ≤ S2944x512.size a
  h_S2944x512 : 0 < S2944x512.numel
  shapeCasts_S2944x512_S2944x512 : S2944x512.ShapeCasts S2944x512
  inb_S2048x512_S2048x512_0_0 : ∀ a, (![0, 0] : Fin 2 → Nat) a + S2048x512.size a ≤ S2048x512.size a
  h_S2048x512 : 0 < S2048x512.numel
  slices_S6144x6144_S5794x5794_0_0 : S6144x6144.Slices ![0, 0] S5794x5794
  shapeCasts_S5794x5794_S33570436 : S5794x5794.ShapeCasts S33570436
  slices_S33570436_S33564672_0 : S33570436.Slices ![0] S33564672
  slices_S33564672_S8388608_0 : S33564672.Slices ![0] S8388608
  shapeCasts_S8388608_S4096x2048 : S8388608.ShapeCasts S4096x2048
  slices_S33564672_S4096_8388608 : S33564672.Slices ![8388608] S4096
  slices_S33564672_S16777216_8392704 : S33564672.Slices ![8392704] S16777216
  shapeCasts_S16777216_S4096x4096 : S16777216.ShapeCasts S4096x4096
  slices_S33564672_S4096_25169920 : S33564672.Slices ![25169920] S4096
  slices_S33564672_S8388608_25174016 : S33564672.Slices ![25174016] S8388608
  shapeCasts_S8388608_S2048x4096 : S8388608.ShapeCasts S2048x4096
  slices_S33564672_S2048_33562624 : S33564672.Slices ![33562624] S2048
  shapeCasts_S4096_S1x4096 : S4096.ShapeCasts S1x4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S2048_S1x2048 : S2048.ShapeCasts S1x2048
  dot_S2048x2944_S2944x512_S2048x512_1_0_0_1_n_n_wf : DotDims.WF S2048x2944 S2944x512 S2048x512 [1] [0] [0] [1] [] []
  dot_S512x2048_S512x2048_S512x512_1_1_0_0_n_n_wf : DotDims.WF S512x2048 S512x2048 S512x512 [1] [1] [0] [0] [] []
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2944.size a ≤ S6144x2944.size a
  hwx0_0 : ∀ i : grid0.Coords, EltTy.bits .bf16 = 32 ∨ (Rect.block (s := S6144x2944) S2048x2944.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2944x512.size a ≤ S2944x6144.size a
  hwx0_1 : ∀ i : grid0.Coords, EltTy.bits .bf16 = 32 ∨ (Rect.block (s := S2944x6144) S2944x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S6144x6144.size a
  hwx0_2 : ∀ i : grid0.Coords, EltTy.bits .f32 = 32 ∨ (Rect.block (s := S6144x6144) S2048x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .f32 = 32 ∨ (Rect.block (s := S4096x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x2048.size a
  hwx1_1 : ∀ i : grid1.Coords, EltTy.bits .f32 = 32 ∨ (Rect.block (s := S4096x2048) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .bf16 = 32 ∨ (Rect.block (s := S4096x4096) S512x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .bf16 = 32 ∨ (Rect.block (s := S4096x4096) S512x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .f32 = 32 ∨ (Rect.block (s := S4096x4096) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x4096.size a
  hwx2_2 : ∀ i : grid2.Coords, EltTy.bits .f32 = 32 ∨ (Rect.block (s := S1x4096) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x4096.size a
  hwx2_3 : ∀ i : grid2.Coords, EltTy.bits .bf16 = 32 ∨ (Rect.block (s := S4096x4096) S512x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .bf16 = 32 ∨ (Rect.block (s := S4096x4096) S512x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x4096.size a ≤ S2048x4096.size a
  hwx3_1 : ∀ i : grid3.Coords, EltTy.bits .f32 = 32 ∨ (Rect.block (s := S2048x4096) S512x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x2048.size a
  hwx3_2 : ∀ i : grid3.Coords, EltTy.bits .f32 = 32 ∨ (Rect.block (s := S1x2048) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x512.size a ≤ S4096x2048.size a
  hwx3_3 : ∀ i : grid3.Coords, EltTy.bits .f32 = 32 ∨ (Rect.block (s := S4096x2048) S512x512.size (cc3_transform_3 i) (hinb3_3 i)).WholeWords (EltTy.packing .f32)

variable [Facts₀]

def dot_S2048x2944_S2944x512_S2048x512_1_0_0_1_n_n : DotDims S2048x2944 S2944x512 S2048x512 where
  lhsContracting := [1]
  rhsContracting := [0]
  lhsNonContracting := [0]
  rhsNonContracting := [1]
  lhsBatch := []
  rhsBatch := []
  wf := dot_S2048x2944_S2944x512_S2048x512_1_0_0_1_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v1) S2048x2944.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2944x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v20) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S512x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v22) S512x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4096x2048 : Shape := ⟨2, ![4096, 2048]⟩
abbrev S5794x2897 : Shape := ⟨2, ![5794, 2897]⟩
abbrev S2897x5794 : Shape := ⟨2, ![2897, 5794]⟩
abbrev S5794x5794 : Shape := ⟨2, ![5794, 5794]⟩
abbrev S33570436 : Shape := ⟨1, ![33570436]⟩
abbrev S8388608 : Shape := ⟨1, ![8388608]⟩
abbrev S4096 : Shape := ⟨1, ![4096]⟩
abbrev S16777216 : Shape := ⟨1, ![16777216]⟩
abbrev S4096x4096 : Shape := ⟨2, ![4096, 4096]⟩
abbrev S2048x4096 : Shape := ⟨2, ![2048, 4096]⟩
abbrev S2048 : Shape := ⟨1, ![2048]⟩
abbrev S1x4096 : Shape := ⟨2, ![1, 4096]⟩
abbrev S_ : Shape := ⟨0, ![]⟩
abbrev S1x2048 : Shape := ⟨2, ![1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5794x2897, .f32⟩
  | .hbm, ⟨2, _⟩ => ⟨S2897x5794, .f32⟩
  | .hbm, ⟨3, _⟩ => ⟨S5794x5794, .f32⟩
  | .hbm, ⟨4, _⟩ => ⟨S33570436, .f32⟩
  | .hbm, ⟨5, _⟩ => ⟨S8388608, .f32⟩
  | .hbm, ⟨6, _⟩ => ⟨S4096x2048, .f32⟩
  | .hbm, ⟨7, _⟩ => ⟨S4096, .f32⟩
  | .hbm, ⟨8, _⟩ => ⟨S16777216, .f32⟩
  | .hbm, ⟨9, _⟩ => ⟨S4096x4096, .f32⟩
  | .hbm, ⟨10, _⟩ => ⟨S4096, .f32⟩
  | .hbm, ⟨11, _⟩ => ⟨S8388608, .f32⟩
  | .hbm, ⟨12, _⟩ => ⟨S2048x4096, .f32⟩
  | .hbm, ⟨13, _⟩ => ⟨S2048, .f32⟩
  | .hbm, ⟨14, _⟩ => ⟨S2048x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_call0_cst : Ref sig .tc := ⟨.hbm, 19, rfl⟩
abbrev main_call0_v0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call1_cst : Ref sig .tc := ⟨.hbm, 27, rfl⟩
abbrev main_call1_v0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  shapeCasts_S5794x5794_S33570436 : S5794x5794.ShapeCasts S33570436
  slices_S33570436_S8388608_0 : S33570436.Slices ![0] S8388608
  shapeCasts_S8388608_S4096x2048 : S8388608.ShapeCasts S4096x2048
  slices_S33570436_S4096_8388608 : S33570436.Slices ![8388608] S4096
  slices_S33570436_S16777216_8392704 : S33570436.Slices ![8392704] S16777216
  shapeCasts_S16777216_S4096x4096 : S16777216.ShapeCasts S4096x4096
  slices_S33570436_S4096_25169920 : S33570436.Slices ![25169920] S4096
  slices_S33570436_S8388608_25174016 : S33570436.Slices ![25174016] S8388608
  shapeCasts_S8388608_S2048x4096 : S8388608.ShapeCasts S2048x4096
  slices_S33570436_S2048_33562624 : S33570436.Slices ![33562624] S2048
  transposes_S4096x2048_S2048x4096_1_0 : S4096x2048.Transposes [1, 0] S2048x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  transposes_S2048x4096_S4096x2048_1_0 : S2048x4096.Transposes [1, 0] S4096x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S5794x2897_S2897x5794_S5794x5794_1_0_0_1_n_n_wf : DotDims.WF S5794x2897 S2897x5794 S5794x5794 [1] [0] [0] [1] [] []
  dot_S4096x2048_S2048x4096_S4096x4096_1_0_0_1_n_n_wf : DotDims.WF S4096x2048 S2048x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x2048_S4096x2048_1_0_0_1_n_n_wf : DotDims.WF S4096x4096 S4096x2048 S4096x2048 [1] [0] [0] [1] [] []

variable [Facts₀]

def dot_S5794x2897_S2897x5794_S5794x5794_1_0_0_1_n_n : DotDims S5794x2897 S2897x5794 S5794x5794 where
  lhsContracting := [1]
  rhsContracting := [0]
  lhsNonContracting := [0]
  rhsNonContracting := [1]
  lhsBatch := []
  rhsBatch := []
  wf := dot_S5794x2897_S2897x5794_S5794x5794_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.KernelRun.lean ====
/-
  The idealized kernel's run, with the result buffer read.

  @main is eleven segments: stretches of host operations and four launches. The buffers' contents at each boundary
  are a fold from the launch memory, and every weakly fair execution ends with every unscoped buffer at the last
  boundary's contents. The generated frame keeps only the three argument arrays of that fact; here the result buffer is
  kept as well, so that its value can be computed from the fold.
-/
import proofs.«128955_j24953759990119_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the three argument arrays as launched. -/
theorem run : θ_run defs (onTc (τ := τ) (main (F := F))) ⟨m, fun _ => 0, ρ⟩ (fun r => ∀ c : Dev nD,
      r.2.mem ((c.tc : Thread nD τ).loc main_v22) = W11 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v22 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c)⟩)

end Cert.KernelIdeal.Result

end
-- ==== Proof.LibPlainDot.lean ====
/-
  A matrix product of the plain kind — rows × contraction times contraction × columns — read at an index, at the
  ideal instance.

  For the dimension numbers `DotDims.plain M K N` both the vector unit's matmul into a zero accumulator and the host's
  dot_general are, at output index (a, b), the sum over k of l (a, k) · r (k, b) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of such a product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx,
        l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.LibDenseLayer.lean ====
/-
  A dense layer on the extended reals, and the host spellings that compute it.

  Definitions, index by index: `prod` (the matrix product a · b), `layer` (x · wᵀ + b, the bias one row) and `relu`
  (the clamp below at 0). Lemmas, at the ideal instance, for whole arrays:
  * `dotGeneral_eq_prod` — the host's dot_general of an M × K by a K × N array is `prod`;
  * `hostLayer_eq` — the host's x times the TRANSPOSED weights, plus the bias vector broadcast to one row and then to
    every row, is `layer` with the bias reshaped to one row;
  * `hostRelu_eq` — the host's maximum with a broadcast scalar zero is `relu`;
  * `slice_slice` — a slice of a leading slice (offset 0) of a vector is the slice of the vector at the same offset.
  The first two rest on the plain matrix product read at an index (the module LibPlainDot, imported here: take both files).
-/
import Idealize.ShloMosaic.PureOps.Ideal.Laws
import Idealize.ShloMosaic.Lib.ValueIdx
import Idealize.ShloMosaic.Lib.ValueLayout
import Idealize.ShloMosaic.Lib.Pipeline.Value
import proofs.«128955_j24953759990119_2_alg».proof.Proof.LibPlainDot

noncomputable section

open scoped BigOperators

namespace MlpSpec

open Idealize.ShloMosaic Idealize.ShloMosaic.ValueIdx

/-- The matrix product a · b at (p, q): the sum over k of a (p, k) · b (k, q). -/
def prod (M K N : Nat) (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

/-- One layer x · wᵀ + b at (p, q): the sum over k of x (p, k) · w (q, k), plus the bias row's entry q. -/
def layer (M K N : Nat) (x : (⟨2, ![M, K]⟩ : Shape).Idx → EReal) (w : (⟨2, ![N, K]⟩ : Shape).Idx → EReal)
    (b : (⟨2, ![1, N]⟩ : Shape).Idx → EReal) : (⟨2, ![M, N]⟩ : Shape).Idx → EReal :=
  fun i => (∑ k : Fin K, x (ix2 (i 0) k) * w (ix2 (i 1) k)) + b (ix2 0 (i 1))

/-- The clamp below at 0, entry by entry. -/
def relu {s : Shape} (y : s.Idx → EReal) : s.Idx → EReal := fun i => max (y i) 0

/-- The host's product of an M × K by a K × N array is `prod`. -/
theorem dotGeneral_eq_prod {M K N : Nat} (D : DotDims ⟨2, ![M, K]⟩ ⟨2, ![K, N]⟩ ⟨2, ![M, N]⟩) (hD : D = DotDims.plain M K N)
    (a : FVec Ideal ⟨2, ![M, K]⟩ .f32) (b : FVec Ideal ⟨2, ![K, N]⟩ .f32) :
    Host.dotGeneral (F := Ideal) D none a b = prod M K N a b := by
  funext i
  obtain ⟨p, q, rfl⟩ : ∃ (p : Fin M) (q : Fin N), i = ix2 p q := ⟨i 0, i 1, eq_ix2 i⟩
  exact PlainDot.dotGeneral_plain D hD none a b p q

/-- The reference's layer: x times the transposed weights plus the bias broadcast to every row. -/
theorem hostLayer_eq {M K N : Nat} (D : DotDims ⟨2, ![M, K]⟩ ⟨2, ![K, N]⟩ ⟨2, ![M, N]⟩) (hD : D = DotDims.plain M K N)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2))
    (hs : (⟨1, ![N]⟩ : Shape).ShapeCasts ⟨2, ![1, N]⟩) :
    addf (Host.dotGeneral (F := Ideal) D none x (transpose ⟨2, ![K, N]⟩ [1, 0] w ht))
        (broadcastInDim ⟨2, ![M, N]⟩ ![0, 1] hb2 (broadcastInDim ⟨2, ![1, N]⟩ ![1] hb1 b))
      = layer M K N x w (shapeCast ⟨2, ![1, N]⟩ b hs) := by
  funext i
  obtain ⟨p, q, rfl⟩ : ∃ (p : Fin M) (q : Fin N), i = ix2 p q := ⟨i 0, i 1, eq_ix2 i⟩
  have hsum : ∀ k : Fin K, transpose ⟨2, ![K, N]⟩ [1, 0] w ht (ix2 k q) = w (ix2 q k) := fun k => transpose_ix2_apply w ht k q
  show Host.dotGeneral (F := Ideal) D none x (transpose ⟨2, ![K, N]⟩ [1, 0] w ht) (ix2 p q)
      + broadcastInDim ⟨2, ![M, N]⟩ ![0, 1] hb2 (broadcastInDim ⟨2, ![1, N]⟩ ![1] hb1 b) (ix2 p q)
    = (∑ k : Fin K, x (ix2 p k) * w (ix2 q k)) + shapeCast ⟨2, ![1, N]⟩ b hs (ix2 (0 : Fin 1) q)
  rw [PlainDot.dotGeneral_plain D hD none x _ p q]
  simp only [hsum]
  rw [broadcastInDim_apply ![0, 1] hb2 _ (ix2 p q) (ix2 (0 : Fin 1) q) (fun a => by
      match a with
      | ⟨0, _⟩ => rfl
      | ⟨1, _⟩ =>
        show q.val = if N = 1 then 0 else q.val
        split
        · have := q.isLt; omega
        · rfl),
    broadcastInDim_apply ![1] hb1 b (ix2 (0 : Fin 1) q) (ix1 q) (fun a => by
      match a with
      | ⟨0, _⟩ =>
        show q.val = if N = 1 then 0 else q.val
        split
        · have := q.isLt; omega
        · rfl),
    shapeCast_a_1a_apply b hs 0 q]

/-- The host's maximum with a broadcast zero is the clamp. -/
theorem hostRelu_eq {s : Shape} (y : FVec Ideal s .f32)
    (h : (⟨0, ![]⟩ : Shape).BroadcastsInDim s (![] : Fin 0 → Fin s.rank)) :
    maximumf y (broadcastInDim s ![] h (constant (F := Ideal) ⟨0, ![]⟩ .f32 0x00000000#32)) = relu y := by
  funext i
  rw [maximumf_apply, broadcastInDim_apply ![] h _ i ix0 (fun a => a.elim0), constant_apply, Ideal.ofBits_zero_f32]
  rfl

/-- A slice of a leading slice of a vector is the slice of the vector at the same offset. -/
theorem slice_slice {α : Type} {n n1 n2 : Nat} (off : Nat) (x : (⟨1, ![n]⟩ : Shape).Idx → α)
    (h1 : (⟨1, ![n]⟩ : Shape).Slices ![0] ⟨1, ![n1]⟩) (h2 : (⟨1, ![n1]⟩ : Shape).Slices ![off] ⟨1, ![n2]⟩)
    (h3 : (⟨1, ![n]⟩ : Shape).Slices ![off] ⟨1, ![n2]⟩) :
    extractStridedSlice ⟨1, ![n2]⟩ ![off] (extractStridedSlice ⟨1, ![n1]⟩ ![0] x h1) h2
      = extractStridedSlice ⟨1, ![n2]⟩ ![off] x h3 := by
  funext j
  unfold extractStridedSlice
  refine congrArg x (funext fun a => Fin.ext ?_)
  match a with
  | ⟨0, _⟩ => exact Nat.zero_add _

end MlpSpec

end
-- ==== Proof.Region0.lean ====
/-
  The first launch: the padded factors' product, block by block.

  The grid is 3 × 12. Point (a, b) stages rows 2048a … 2048a + 2047 of the left factor (all 2944 columns) and columns
  512b … 512b + 511 of the right factor (all 2944 rows), and writes the 2048 × 512 block (a, b) of the result: entry
  (p, q) of that block is the sum over k of left (2048a + p, k) · right (k, 512b + q). The blocks tile the
  6144 × 6144 result, so the whole array ends at the product of the two staged arrays.
-/
import proofs.«128955_j24953759990119_2_alg».proof.Proof.Gen.KernelIdeal.Frame
import Idealize.ShloMosaic.Lib.Pipeline.Value
import proofs.«128955_j24953759990119_2_alg».proof.Proof.LibDenseLayer
import proofs.«128955_j24953759990119_2_alg».proof.Proof.LibPlainDot
set_option maxRecDepth 16384

noncomputable section

open scoped BigOperators

namespace Cert.KernelIdeal.LowRank

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The body's stored value at (p, q): the contraction over the 2944 staged columns / rows. -/
theorem stored_apply (x0 : Vec Ideal S2048x2944 .bf16) (x1 : Vec Ideal S2944x512 .bf16) (p : Fin 2048) (q : Fin 512) :
    k0_pay1 (F := Ideal) x0 x1 (ix2 p q) = ∑ k : Fin 2944, x0 (ix2 p k) * x1 (ix2 k q) := by
  unfold k0_pay1
  rw [shapeCast_self, shapeCast_self]
  exact PlainDot.matmul_plain _ rfl none x0 x1 p q

/-- The printed index maps over the grid: the left window follows the output's row block, the right window its
    column block, and the output's block indices stay in range. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 2 ∧ win0_2.index t (1 : Fin 2) ≤ 11 :=
  (by decide +kernel : ∀ t : Fin grid0.N, _)

/-- Every block of the result is some point's. -/
theorem index_onto : ∀ (q0 : Fin 3) (q1 : Fin 12), ∃ t : Fin cfg0.N, win0_2.index t = ![q0.val, q1.val] :=
  (by decide +kernel : ∀ (q0 : Fin 3) (q1 : Fin 12), ∃ t : Fin grid0.N, win0_2.index t = ![q0.val, q1.val])

/-- What point `t` writes back is block `t` of the product of the two staged arrays. -/
theorem flushed_eq (c : Dev nD) (t : Fin cfg0.N) :
    (dat0 V c).flushed 2 t = ((cfg0.win 2).blk t).view.read (Elt Ideal)
      (MlpSpec.prod 6144 2944 6144 (V c main_v1) (V c main_v3)) := by
  show (cfg0.win 2).cut (grid0.coords t) ((dat0 V c).after 2 t) = _
  rw [after0_2]
  unfold out0_2
  rw [View.canon_unit_zero origin2]
  simp only [View.ld_unit_zero (S := S2048x2944) origin2, View.ld_unit_zero (S := S2944x512) origin2]
  obtain ⟨e0, e1, e2, e3, e4, e5⟩ := index_facts t
  funext j
  show k0_pay1 (F := Ideal) (iblk0 V c 0 t) (iblk0 V c 1 t) j
    = MlpSpec.prod 6144 2944 6144 (V c main_v1) (V c main_v3) (((cfg0.win 2).blk t).view.emb j)
  obtain ⟨p, q, rfl⟩ : ∃ (p : Fin 2048) (q : Fin 512), j = ix2 p q := ⟨j 0, j 1, eq_ix2 j⟩
  rw [stored_apply]
  unfold MlpSpec.prod
  refine Finset.sum_congr rfl fun k _ => ?_
  have h0 : iblk0 V c 0 t (ix2 p k) = V c main_v1 (ix2 ((((cfg0.win 2).blk t).view.emb (ix2 p q)) 0) k) := by
    show V c main_v1 (((cfg0.win 0).blk t).view.emb (ix2 p k)) = _
    refine congrArg (V c main_v1) (funext fun a => Fin.ext ?_)
    match a with
    | ⟨0, _⟩ => show win0_0.index t (0 : Fin 2) * 2048 + 1 * p.val = win0_2.index t (0 : Fin 2) * 2048 + 1 * p.val; omega
    | ⟨1, _⟩ => show win0_0.index t (1 : Fin 2) * 2944 + 1 * k.val = k.val; omega
  have h1 : iblk0 V c 1 t (ix2 k q) = V c main_v3 (ix2 k ((((cfg0.win 2).blk t).view.emb (ix2 p q)) 1)) := by
    show V c main_v3 (((cfg0.win 1).blk t).view.emb (ix2 k q)) = _
    refine congrArg (V c main_v3) (funext fun a => Fin.ext ?_)
    match a with
    | ⟨0, _⟩ => show win0_1.index t (0 : Fin 2) * 2944 + 1 * k.val = k.val; omega
    | ⟨1, _⟩ => show win0_1.index t (1 : Fin 2) * 512 + 1 * q.val = win0_2.index t (1 : Fin 2) * 512 + 1 * q.val; omega
  rw [h0, h1]

/-- An index of the result is in point `t`'s block iff each coordinate is in the block's range on its axis. -/
theorem mem_block (t : Fin cfg0.N) (i : S6144x6144.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v4).slice (win0_2.rect t)).set ↔ _
  rw [View.set_slice_whole, Rect.mem_set_unit]
  exact Iff.rfl

/-- The blocks tile the result: entry (r, s) lies in the block of the point with block indices (r / 2048, s / 512). -/
theorem covered (i : S6144x6144.Idx) :
    ∃ t : Fin cfg0.N, (cfg0.win 2).flush t = true ∧ i ∈ ((cfg0.win 2).blk t).view.set := by
  have hi0 : (i 0).val < 6144 := (i 0).isLt
  have hi1 : (i 1).val < 6144 := (i 1).isLt
  obtain ⟨t, ht⟩ := index_onto ⟨(i 0).val / 2048, by omega⟩ ⟨(i 1).val / 512, by omega⟩
  have q0 : win0_2.index t (0 : Fin 2) = (i 0).val / 2048 := congrFun ht 0
  have q1 : win0_2.index t (1 : Fin 2) = (i 1).val / 512 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- The result array after the launch: the product of the two arrays the launch staged. -/
theorem final (c : Dev nD) :
    (dat0 V c).arrAt 2 cfg0.N = MlpSpec.prod 6144 2944 6144 (V c main_v1) (V c main_v3) :=
  (dat0 V c).arrAt_eq_of_cover 2 _ (fun t _ => flushed_eq V c t) covered

end Cert.KernelIdeal.LowRank

end
-- ==== Proof.LibTransposedDot.lean ====
/-
  A matrix product whose right operand is contracted on its LAST axis, read at an index, at the ideal instance.

  For the dimension numbers "rows × contraction times columns × contraction" (`DotDims.transposedRhs M K N`: the
  product x · yᵀ written without a transpose) both the vector unit's matmul into a zero accumulator and the host's
  dot_general are, at output index (a, b), the sum over k of l (a, k) · r (b, k) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

theorem lhs0 (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
theorem lhs1 (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
theorem rhs0 (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl
theorem rhs1 (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction sum of such a product at (a, b), over the coordinate `k : Fin K`. -/
theorem sum_transposedRhs (M K N : Nat) {φ₁ φ₂ : FTy} (l : FVec Ideal ⟨2, ![M, K]⟩ φ₁) (r : FVec Ideal ⟨2, ![N, K]⟩ φ₂)
    (a : Fin M) (b : Fin N) :
    ∑ k : (DotDims.transposedRhs M K N).contr.Idx,
        l ((DotDims.transposedRhs M K N).lhsIdx (ix2 a b) k) * r ((DotDims.transposedRhs M K N).rhsIdx (ix2 a b) k)
      = ∑ k : Fin K, l (ix2 a k) * r (ix2 b k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun d => Fin.ext (by
      match d with
      | ⟨0, _⟩ => exact lhs0 M K N _ _
      | ⟨1, _⟩ => exact (lhs1 M K N _ _).trans hk)
  have er : (DotDims.transposedRhs M K N).rhsIdx (ix2 a b) ((contrEquiv1 (DotDims.transposedRhs M K N) K rfl rfl).symm k) = ix2 b k :=
    funext fun d => Fin.ext (by
      match d with
      | ⟨0, _⟩ => exact rhs0 M K N _ _
      | ⟨1, _⟩ => exact (rhs1 M K N _ _).trans hk)
  rw [el, er]

/-- The vector unit's matmul into the zero accumulator, at (a, b). -/
theorem matmul_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  subst hD
  exact (Ideal.matmul_constant_zero_apply _ prec l r (ix2 a b)).trans (sum_transposedRhs M K N l r a b)

/-- The host's dot_general, at (a, b). -/
theorem dotGeneral_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    Host.dotGeneral (F := Ideal) D prec l r (ix2 a b) = ∑ k : Fin K, l (ix2 a k) * r (ix2 b k) := by
  subst hD
  simp only [Host.dotGeneral]
  exact (Ideal.dotGeneral_apply _ prec _ l r (ix2 a b)).trans (sum_transposedRhs M K N l r a b)

end Idealize.ShloMosaic.TransposedDot

end
-- ==== Proof.Region1.lean ====
/-
  The second launch: the first layer, block by block.

  The grid is 8 × 8. Point (a, b) stages rows 512a … 512a + 511 of the batch (all 2048 columns), rows
  512b … 512b + 511 of the weight matrix (all 2048 columns) and entries 512b … 512b + 511 of the bias row, and writes
  the 512 × 512 block (a, b) of the result: entry (p, q) of that block is the sum over k of
  batch (512a + p, k) · weight (512b + q, k), plus bias (512b + q), clamped below at 0. Rounding the operands to a narrower
  format on the way into the product is the identity on the extended reals. The blocks tile the 4096 × 4096
  result, so the whole array ends at the layer's function of the three staged arrays.
-/
import proofs.«128955_j24953759990119_2_alg».proof.Proof.Gen.KernelIdeal.Frame
import Idealize.ShloMosaic.Lib.Pipeline.Value
import proofs.«128955_j24953759990119_2_alg».proof.Proof.LibDenseLayer
import proofs.«128955_j24953759990119_2_alg».proof.Proof.LibTransposedDot
import Idealize.ShloMosaic.Lib.ValueLayout
set_option maxRecDepth 16384

noncomputable section

open scoped BigOperators

namespace Cert.KernelIdeal.LayerOne

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The body's stored value at (p, q). -/
theorem stored_apply (x0 : Vec Ideal S512x2048 .f32) (x1 : Vec Ideal S512x2048 .f32) (x2 : Vec Ideal S1x512 .f32) (p q : Fin 512) :
    k1_pay1 (F := Ideal) x0 x1 x2 (ix2 p q) = max ((∑ k : Fin 2048, x0 (ix2 p k) * x1 (ix2 q k)) + x2 (ix2 (0 : Fin 1) q)) 0 := by
  unfold k1_pay1
  simp only [shapeCast_self]
  show max ((matmul (F := Ideal) dot_S512x2048_S512x2048_S512x512_1_1_0_0_n_n none x0 x1 (constant S512x512 .f32 0x00000000#32) (ix2 p q)) + broadcastTo S512x512 x2 broadcasts_S1x512_S512x512 (ix2 p q)) (Scalar.ofBits (F := Ideal) .f32 0x00000000#32) = _
  rw [TransposedDot.matmul_transposedRhs dot_S512x2048_S512x2048_S512x512_1_1_0_0_n_n rfl none x0 x1 p q, broadcastTo_1b_ab_apply]
  rw [show Scalar.ofBits (F := Ideal) .f32 0x00000000#32 = (0 : EReal) from Ideal.ofBits_zero_f32]

/-- The printed index maps over the grid: the batch window follows the output's row block, the weight and bias
    windows its column block, and the output's block indices stay in range. -/
theorem index_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) ≤ 7 ∧ win1_3.index t (1 : Fin 2) ≤ 7 :=
  (by decide +kernel : ∀ t : Fin grid1.N, _)

/-- Every block of the result is some point's. -/
theorem index_onto : ∀ (q0 : Fin 8) (q1 : Fin 8), ∃ t : Fin cfg1.N, win1_3.index t = ![q0.val, q1.val] :=
  (by decide +kernel : ∀ (q0 : Fin 8) (q1 : Fin 8), ∃ t : Fin grid1.N, win1_3.index t = ![q0.val, q1.val])

/-- What point `t` writes back is block `t` of the layer's function of the three staged arrays. -/
theorem flushed_eq (c : Dev nD) (t : Fin cfg1.N) :
    (dat1 V c).flushed 3 t = ((cfg1.win 3).blk t).view.read (Elt Ideal)
      (MlpSpec.relu (MlpSpec.layer 4096 2048 4096 (V c main_arg0) (V c main_v9) (V c main_v17))) := by
  show (cfg1.win 3).cut (grid1.coords t) ((dat1 V c).after 3 t) = _
  rw [after1_3]
  unfold out1_3
  rw [View.canon_unit_zero origin2]
  simp only [View.ld_unit_zero (S := S512x2048) origin2, View.ld_unit_zero (S := S512x2048) origin2, View.ld_unit_zero (S := S1x512) origin2]
  obtain ⟨e0, e1, e2, e3, e4, e5, e6, e7⟩ := index_facts t
  funext j
  show k1_pay1 (F := Ideal) (iblk1 V c 0 t) (iblk1 V c 1 t) (iblk1 V c 2 t) j
    = (MlpSpec.relu (MlpSpec.layer 4096 2048 4096 (V c main_arg0) (V c main_v9) (V c main_v17))) (((cfg1.win 3).blk t).view.emb j)
  obtain ⟨p, q, rfl⟩ : ∃ (p : Fin 512) (q : Fin 512), j = ix2 p q := ⟨j 0, j 1, eq_ix2 j⟩
  rw [stored_apply]
  unfold MlpSpec.relu MlpSpec.layer
  have hb : iblk1 V c 2 t (ix2 (0 : Fin 1) q) = V c main_v17 (ix2 (0 : Fin 1) ((((cfg1.win 3).blk t).view.emb (ix2 p q)) 1)) := by
    show V c main_v17 (((cfg1.win 2).blk t).view.emb (ix2 (0 : Fin 1) q)) = _
    refine congrArg (V c main_v17) (funext fun a => Fin.ext ?_)
    match a with
    | ⟨0, _⟩ => show win1_2.index t (0 : Fin 2) * 1 + 1 * 0 = 0; omega
    | ⟨1, _⟩ => show win1_2.index t (1 : Fin 2) * 512 + 1 * q.val = win1_3.index t (1 : Fin 2) * 512 + 1 * q.val; omega
  rw [hb]
  refine congrArg (fun s : EReal => max (s + V c main_v17 (ix2 (0 : Fin 1) ((((cfg1.win 3).blk t).view.emb (ix2 p q)) 1))) 0) ?_
  refine Finset.sum_congr rfl fun k _ => ?_
  have h0 : iblk1 V c 0 t (ix2 p k) = V c main_arg0 (ix2 ((((cfg1.win 3).blk t).view.emb (ix2 p q)) 0) k) := by
    show V c main_arg0 (((cfg1.win 0).blk t).view.emb (ix2 p k)) = _
    refine congrArg (V c main_arg0) (funext fun a => Fin.ext ?_)
    match a with
    | ⟨0, _⟩ => show win1_0.index t (0 : Fin 2) * 512 + 1 * p.val = win1_3.index t (0 : Fin 2) * 512 + 1 * p.val; omega
    | ⟨1, _⟩ => show win1_0.index t (1 : Fin 2) * 2048 + 1 * k.val = k.val; omega
  have h1 : iblk1 V c 1 t (ix2 q k) = V c main_v9 (ix2 ((((cfg1.win 3).blk t).view.emb (ix2 p q)) 1) k) := by
    show V c main_v9 (((cfg1.win 1).blk t).view.emb (ix2 q k)) = _
    refine congrArg (V c main_v9) (funext fun a => Fin.ext ?_)
    match a with
    | ⟨0, _⟩ => show win1_1.index t (0 : Fin 2) * 512 + 1 * q.val = win1_3.index t (1 : Fin 2) * 512 + 1 * q.val; omega
    | ⟨1, _⟩ => show win1_1.index t (1 : Fin 2) * 2048 + 1 * k.val = k.val; omega
  rw [h0, h1]

/-- An index of the result is in point `t`'s block iff each coordinate is in the block's range on its axis. -/
theorem mem_block (t : Fin cfg1.N) (i : S4096x4096.Idx) :
    i ∈ ((cfg1.win 3).blk t).view.set ↔ ∀ a : Fin 2, win1_3.index t a * S512x512.size a ≤ (i a).val
      ∧ (i a).val < win1_3.index t a * S512x512.size a + S512x512.size a := by
  show i ∈ ((View.whole main_v18).slice (win1_3.rect t)).set ↔ _
  rw [View.set_slice_whole, Rect.mem_set_unit]
  exact Iff.rfl

/-- The blocks tile the result: entry (r, s) lies in the block of the point with block indices (r / 512, s / 512). -/
theorem covered (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := index_onto ⟨(i 0).val / 512, by omega⟩ ⟨(i 1).val / 512, by omega⟩
  have q0 : win1_3.index t (0 : Fin 2) = (i 0).val / 512 := congrFun ht 0
  have q1 : win1_3.index t (1 : Fin 2) = (i 1).val / 512 := congrFun ht 1
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 512 ≤ (i 1).val ∧ (i 1).val < win1_3.index t (1 : Fin 2) * 512 + 512; omega

/-- The result array after the launch: the layer's function of the three arrays the launch staged. -/
theorem final (c : Dev nD) :
    (dat1 V c).arrAt 3 cfg1.N = MlpSpec.relu (MlpSpec.layer 4096 2048 4096 (V c main_arg0) (V c main_v9) (V c main_v17)) :=
  (dat1 V c).arrAt_eq_of_cover 3 _ (fun t _ => flushed_eq V c t) covered

end Cert.KernelIdeal.LayerOne

end
-- ==== Proof.Region2.lean ====
/-
  The third launch: the second layer, block by block.

  The grid is 8 × 8. Point (a, b) stages rows 512a … 512a + 511 of the batch (all 4096 columns), rows
  512b … 512b + 511 of the weight matrix (all 4096 columns) and entries 512b … 512b + 511 of the bias row, and writes
  the 512 × 512 block (a, b) of the result: entry (p, q) of that block is the sum over k of
  batch (512a + p, k) · weight (512b + q, k), plus bias (512b + q), clamped below at 0. Rounding the operands to a narrower
  format on the way into the product is the identity on the extended reals. The blocks tile the 4096 × 4096
  result, so the whole array ends at the layer's function of the three staged arrays.
-/
import proofs.«128955_j24953759990119_2_alg».proof.Proof.Gen.KernelIdeal.Frame
import Idealize.ShloMosaic.Lib.Pipeline.Value
import proofs.«128955_j24953759990119_2_alg».proof.Proof.LibDenseLayer
import proofs.«128955_j24953759990119_2_alg».proof.Proof.LibTransposedDot
import Idealize.ShloMosaic.Lib.ValueLayout
set_option maxRecDepth 16384

noncomputable section

open scoped BigOperators

namespace Cert.KernelIdeal.LayerTwo

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The body's stored value at (p, q). -/
theorem stored_apply (x0 : Vec Ideal S512x4096 .bf16) (x1 : Vec Ideal S512x4096 .f32) (x2 : Vec Ideal S1x512 .f32) (p q : Fin 512) :
    k2_pay1 (F := Ideal) x0 x1 x2 (ix2 p q) = max ((∑ k : Fin 4096, x0 (ix2 p k) * x1 (ix2 q k)) + x2 (ix2 (0 : Fin 1) q)) 0 := by
  unfold k2_pay1
  simp only [shapeCast_self]
  show max ((matmul (F := Ideal) dot_S512x4096_S512x4096_S512x512_1_1_0_0_n_n none x0 x1 (constant S512x512 .f32 0x00000000#32) (ix2 p q)) + broadcastTo S512x512 x2 broadcasts_S1x512_S512x512 (ix2 p q)) (Scalar.ofBits (F := Ideal) .f32 0x00000000#32) = _
  rw [TransposedDot.matmul_transposedRhs dot_S512x4096_S512x4096_S512x512_1_1_0_0_n_n rfl none x0 x1 p q, broadcastTo_1b_ab_apply]
  rw [show Scalar.ofBits (F := Ideal) .f32 0x00000000#32 = (0 : EReal) from Ideal.ofBits_zero_f32]

/-- The printed index maps over the grid: the batch window follows the output's row block, the weight and bias
    windows its column block, and the output's block indices stay in range. -/
theorem index_facts : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 7 ∧ win2_3.index t (1 : Fin 2) ≤ 7 :=
  (by decide +kernel : ∀ t : Fin grid2.N, _)

/-- Every block of the result is some point's. -/
theorem index_onto : ∀ (q0 : Fin 8) (q1 : Fin 8), ∃ t : Fin cfg2.N, win2_3.index t = ![q0.val, q1.val] :=
  (by decide +kernel : ∀ (q0 : Fin 8) (q1 : Fin 8), ∃ t : Fin grid2.N, win2_3.index t = ![q0.val, q1.val])

/-- What point `t` writes back is block `t` of the layer's function of the three staged arrays. -/
theorem flushed_eq (c : Dev nD) (t : Fin cfg2.N) :
    (dat2 V c).flushed 3 t = ((cfg2.win 3).blk t).view.read (Elt Ideal)
      (MlpSpec.relu (MlpSpec.layer 4096 4096 4096 (V c main_v18) (V c main_v12) (V c main_v19))) := by
  show (cfg2.win 3).cut (grid2.coords t) ((dat2 V c).after 3 t) = _
  rw [after2_3]
  unfold out2_3
  rw [View.canon_unit_zero origin2]
  simp only [View.ld_unit_zero (S := S512x4096) origin2, View.ld_unit_zero (S := S512x4096) origin2, View.ld_unit_zero (S := S1x512) origin2]
  obtain ⟨e0, e1, e2, e3, e4, e5, e6, e7⟩ := index_facts t
  funext j
  show k2_pay1 (F := Ideal) (iblk2 V c 0 t) (iblk2 V c 1 t) (iblk2 V c 2 t) j
    = (MlpSpec.relu (MlpSpec.layer 4096 4096 4096 (V c main_v18) (V c main_v12) (V c main_v19))) (((cfg2.win 3).blk t).view.emb j)
  obtain ⟨p, q, rfl⟩ : ∃ (p : Fin 512) (q : Fin 512), j = ix2 p q := ⟨j 0, j 1, eq_ix2 j⟩
  rw [stored_apply]
  unfold MlpSpec.relu MlpSpec.layer
  have hb : iblk2 V c 2 t (ix2 (0 : Fin 1) q) = V c main_v19 (ix2 (0 : Fin 1) ((((cfg2.win 3).blk t).view.emb (ix2 p q)) 1)) := by
    show V c main_v19 (((cfg2.win 2).blk t).view.emb (ix2 (0 : Fin 1) q)) = _
    refine congrArg (V c main_v19) (funext fun a => Fin.ext ?_)
    match a with
    | ⟨0, _⟩ => show win2_2.index t (0 : Fin 2) * 1 + 1 * 0 = 0; omega
    | ⟨1, _⟩ => show win2_2.index t (1 : Fin 2) * 512 + 1 * q.val = win2_3.index t (1 : Fin 2) * 512 + 1 * q.val; omega
  rw [hb]
  refine congrArg (fun s : EReal => max (s + V c main_v19 (ix2 (0 : Fin 1) ((((cfg2.win 3).blk t).view.emb (ix2 p q)) 1))) 0) ?_
  refine Finset.sum_congr rfl fun k _ => ?_
  have h0 : iblk2 V c 0 t (ix2 p k) = V c main_v18 (ix2 ((((cfg2.win 3).blk t).view.emb (ix2 p q)) 0) k) := by
    show V c main_v18 (((cfg2.win 0).blk t).view.emb (ix2 p k)) = _
    refine congrArg (V c main_v18) (funext fun a => Fin.ext ?_)
    match a with
    | ⟨0, _⟩ => show win2_0.index t (0 : Fin 2) * 512 + 1 * p.val = win2_3.index t (0 : Fin 2) * 512 + 1 * p.val; omega
    | ⟨1, _⟩ => show win2_0.index t (1 : Fin 2) * 4096 + 1 * k.val = k.val; omega
  have h1 : iblk2 V c 1 t (ix2 q k) = V c main_v12 (ix2 ((((cfg2.win 3).blk t).view.emb (ix2 p q)) 1) k) := by
    show V c main_v12 (((cfg2.win 1).blk t).view.emb (ix2 q k)) = _
    refine congrArg (V c main_v12) (funext fun a => Fin.ext ?_)
    match a with
    | ⟨0, _⟩ => show win2_1.index t (0 : Fin 2) * 512 + 1 * q.val = win2_3.index t (1 : Fin 2) * 512 + 1 * q.val; omega
    | ⟨1, _⟩ => show win2_1.index t (1 : Fin 2) * 4096 + 1 * k.val = k.val; omega
  rw [h0, h1]

/-- An index of the result is in point `t`'s block iff each coordinate is in the block's range on its axis. -/
theorem mem_block (t : Fin cfg2.N) (i : S4096x4096.Idx) :
    i ∈ ((cfg2.win 3).blk t).view.set ↔ ∀ a : Fin 2, win2_3.index t a * S512x512.size a ≤ (i a).val
      ∧ (i a).val < win2_3.index t a * S512x512.size a + S512x512.size a := by
  show i ∈ ((View.whole main_v20).slice (win2_3.rect t)).set ↔ _
  rw [View.set_slice_whole, Rect.mem_set_unit]
  exact Iff.rfl

/-- The blocks tile the result: entry (r, s) lies in the block of the point with block indices (r / 512, s / 512). -/
theorem covered (i : S4096x4096.Idx) :
    ∃ t : Fin cfg2.N, (cfg2.win 3).flush t = true ∧ i ∈ ((cfg2.win 3).blk t).view.set := by
  have hi0 : (i 0).val < 4096 := (i 0).isLt
  have hi1 : (i 1).val < 4096 := (i 1).isLt
  obtain ⟨t, ht⟩ := index_onto ⟨(i 0).val / 512, by omega⟩ ⟨(i 1).val / 512, by omega⟩
  have q0 : win2_3.index t (0 : Fin 2) = (i 0).val / 512 := congrFun ht 0
  have q1 : win2_3.index t (1 : Fin 2) = (i 1).val / 512 := congrFun ht 1
  refine ⟨t, flush2_3 t, ?_⟩
  rw [mem_block]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 512 ≤ (i 1).val ∧ (i 1).val < win2_3.index t (1 : Fin 2) * 512 + 512; omega

/-- The result array after the launch: the layer's function of the three arrays the launch staged. -/
theorem final (c : Dev nD) :
    (dat2 V c).arrAt 3 cfg2.N = MlpSpec.relu (MlpSpec.layer 4096 4096 4096 (V c main_v18) (V c main_v12) (V c main_v19)) :=
  (dat2 V c).arrAt_eq_of_cover 3 _ (fun t _ => flushed_eq V c t) covered

end Cert.KernelIdeal.LayerTwo

end
-- ==== Proof.Region3.lean ====
/-
  The fourth launch: the last layer, block by block.

  The grid is 8 × 4. Point (a, b) stages rows 512a … 512a + 511 of the batch (all 4096 columns), rows
  512b … 512b + 511 of the weight matrix (all 4096 columns) and entries 512b … 512b + 511 of the bias row, and writes
  the 512 × 512 block (a, b) of the result: entry (p, q) of that block is the sum over k of
  batch (512a + p, k) · weight (512b + q, k), plus bias (512b + q). Rounding the operands to a narrower
  format on the way into the product is the identity on the extended reals. The blocks tile the 4096 × 2048
  result, so the whole array ends at the layer's function of the three staged arrays.
-/
import proofs.«128955_j24953759990119_2_alg».proof.Proof.Gen.KernelIdeal.Frame
import Idealize.ShloMosaic.Lib.Pipeline.Value
import proofs.«128955_j24953759990119_2_alg».proof.Proof.LibDenseLayer
import proofs.«128955_j24953759990119_2_alg».proof.Proof.LibTransposedDot
import Idealize.ShloMosaic.Lib.ValueLayout
set_option maxRecDepth 16384

noncomputable section

open scoped BigOperators

namespace Cert.KernelIdeal.LayerThree

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The body's stored value at (p, q). -/
theorem stored_apply (x0 : Vec Ideal S512x4096 .bf16) (x1 : Vec Ideal S512x4096 .f32) (x2 : Vec Ideal S1x512 .f32) (p q : Fin 512) :
    k3_pay1 (F := Ideal) x0 x1 x2 (ix2 p q) = (∑ k : Fin 4096, x0 (ix2 p k) * x1 (ix2 q k)) + x2 (ix2 (0 : Fin 1) q) := by
  unfold k3_pay1
  simp only [shapeCast_self]
  show (matmul (F := Ideal) dot_S512x4096_S512x4096_S512x512_1_1_0_0_n_n none x0 x1 (constant S512x512 .f32 0x00000000#32) (ix2 p q)) + broadcastTo S512x512 x2 broadcasts_S1x512_S512x512 (ix2 p q) = _
  rw [TransposedDot.matmul_transposedRhs dot_S512x4096_S512x4096_S512x512_1_1_0_0_n_n rfl none x0 x1 p q, broadcastTo_1b_ab_apply]

/-- The printed index maps over the grid: the batch window follows the output's row block, the weight and bias
    windows its column block, and the output's block indices stay in range. -/
theorem index_facts : ∀ t : Fin cfg3.N, win3_0.index t (0 : Fin 2) = win3_3.index t (0 : Fin 2)
    ∧ win3_0.index t (1 : Fin 2) = 0
    ∧ win3_1.index t (0 : Fin 2) = win3_3.index t (1 : Fin 2)
    ∧ win3_1.index t (1 : Fin 2) = 0
    ∧ win3_2.index t (0 : Fin 2) = 0
    ∧ win3_2.index t (1 : Fin 2) = win3_3.index t (1 : Fin 2)
    ∧ win3_3.index t (0 : Fin 2) ≤ 7 ∧ win3_3.index t (1 : Fin 2) ≤ 3 :=
  (by decide +kernel : ∀ t : Fin grid3.N, _)

/-- Every block of the result is some point's. -/
theorem index_onto : ∀ (q0 : Fin 8) (q1 : Fin 4), ∃ t : Fin cfg3.N, win3_3.index t = ![q0.val, q1.val] :=
  (by decide +kernel : ∀ (q0 : Fin 8) (q1 : Fin 4), ∃ t : Fin grid3.N, win3_3.index t = ![q0.val, q1.val])

/-- What point `t` writes back is block `t` of the layer's function of the three staged arrays. -/
theorem flushed_eq (c : Dev nD) (t : Fin cfg3.N) :
    (dat3 V c).flushed 3 t = ((cfg3.win 3).blk t).view.read (Elt Ideal)
      (MlpSpec.layer 4096 4096 2048 (V c main_v20) (V c main_v15) (V c main_v21)) := by
  show (cfg3.win 3).cut (grid3.coords t) ((dat3 V c).after 3 t) = _
  rw [after3_3]
  unfold out3_3
  rw [View.canon_unit_zero origin2]
  simp only [View.ld_unit_zero (S := S512x4096) origin2, View.ld_unit_zero (S := S512x4096) origin2, View.ld_unit_zero (S := S1x512) origin2]
  obtain ⟨e0, e1, e2, e3, e4, e5, e6, e7⟩ := index_facts t
  funext j
  show k3_pay1 (F := Ideal) (iblk3 V c 0 t) (iblk3 V c 1 t) (iblk3 V c 2 t) j
    = (MlpSpec.layer 4096 4096 2048 (V c main_v20) (V c main_v15) (V c main_v21)) (((cfg3.win 3).blk t).view.emb j)
  obtain ⟨p, q, rfl⟩ : ∃ (p : Fin 512) (q : Fin 512), j = ix2 p q := ⟨j 0, j 1, eq_ix2 j⟩
  rw [stored_apply]
  unfold MlpSpec.layer
  have hb : iblk3 V c 2 t (ix2 (0 : Fin 1) q) = V c main_v21 (ix2 (0 : Fin 1) ((((cfg3.win 3).blk t).view.emb (ix2 p q)) 1)) := by
    show V c main_v21 (((cfg3.win 2).blk t).view.emb (ix2 (0 : Fin 1) q)) = _
    refine congrArg (V c main_v21) (funext fun a => Fin.ext ?_)
    match a with
    | ⟨0, _⟩ => show win3_2.index t (0 : Fin 2) * 1 + 1 * 0 = 0; omega
    | ⟨1, _⟩ => show win3_2.index t (1 : Fin 2) * 512 + 1 * q.val = win3_3.index t (1 : Fin 2) * 512 + 1 * q.val; omega
  rw [hb]
  refine congrArg (fun s : EReal => s + V c main_v21 (ix2 (0 : Fin 1) ((((cfg3.win 3).blk t).view.emb (ix2 p q)) 1))) ?_
  refine Finset.sum_congr rfl fun k _ => ?_
  have h0 : iblk3 V c 0 t (ix2 p k) = V c main_v20 (ix2 ((((cfg3.win 3).blk t).view.emb (ix2 p q)) 0) k) := by
    show V c main_v20 (((cfg3.win 0).blk t).view.emb (ix2 p k)) = _
    refine congrArg (V c main_v20) (funext fun a => Fin.ext ?_)
    match a with
    | ⟨0, _⟩ => show win3_0.index t (0 : Fin 2) * 512 + 1 * p.val = win3_3.index t (0 : Fin 2) * 512 + 1 * p.val; omega
    | ⟨1, _⟩ => show win3_0.index t (1 : Fin 2) * 4096 + 1 * k.val = k.val; omega
  have h1 : iblk3 V c 1 t (ix2 q k) = V c main_v15 (ix2 ((((cfg3.win 3).blk t).view.emb (ix2 p q)) 1) k) := by
    show V c main_v15 (((cfg3.win 1).blk t).view.emb (ix2 q k)) = _
    refine congrArg (V c main_v15) (funext fun a => Fin.ext ?_)
    match a with
    | ⟨0, _⟩ => show win3_1.index t (0 : Fin 2) * 512 + 1 * q.val = win3_3.index t (1 : Fin 2) * 512 + 1 * q.val; omega
    | ⟨1, _⟩ => show win3_1.index t (1 : Fin 2) * 4096 + 1 * k.val = k.val; omega
  rw [h0, h1]

/-- An index of the result is in point `t`'s block iff each coordinate is in the block's range on its axis. -/
theorem mem_block (t : Fin cfg3.N) (i : S4096x2048.Idx) :
    i ∈ ((cfg3.win 3).blk t).view.set ↔ ∀ a : Fin 2, win3_3.index t a * S512x512.size a ≤ (i a).val
      ∧ (i a).val < win3_3.index t a * S512x512.size a + S512x512.size a := by
  show i ∈ ((View.whole main_v22).slice (win3_3.rect t)).set ↔ _
  rw [View.set_slice_whole, Rect.mem_set_unit]
  exact Iff.rfl

/-- The blocks tile the result: entry (r, s) lies in the block of the point with block indices (r / 512, s / 512). -/
theorem covered (i : S4096x2048.Idx) :
    ∃ t : Fin cfg3.N, (cfg3.win 3).flush t = true ∧ i ∈ ((cfg3.win 3).blk t).view.set := by
  have hi0 : (i 0).val < 4096 := (i 0).isLt
  have hi1 : (i 1).val < 2048 := (i 1).isLt
  obtain ⟨t, ht⟩ := index_onto ⟨(i 0).val / 512, by omega⟩ ⟨(i 1).val / 512, by omega⟩
  have q0 : win3_3.index t (0 : Fin 2) = (i 0).val / 512 := congrFun ht 0
  have q1 : win3_3.index t (1 : Fin 2) = (i 1).val / 512 := congrFun ht 1
  refine ⟨t, flush3_3 t, ?_⟩
  rw [mem_block]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 512 ≤ (i 1).val ∧ (i 1).val < win3_3.index t (1 : Fin 2) * 512 + 512; omega

/-- The result array after the launch: the layer's function of the three arrays the launch staged. -/
theorem final (c : Dev nD) :
    (dat3 V c).arrAt 3 cfg3.N = MlpSpec.layer 4096 4096 2048 (V c main_v20) (V c main_v15) (V c main_v21) :=
  (dat3 V c).arrAt_eq_of_cover 3 _ (fun t _ => flushed_eq V c t) covered

end Cert.KernelIdeal.LayerThree

end
-- ==== Proof.KernelValue.lean ====
/-
  The idealized kernel's result as a function of its three arguments.

  Between the launches @main only moves data: it rounds the two factors (the identity on the extended reals) and pads
  them with the conversion of the integer 0; after the first launch it cuts the 5794 × 5794 corner out of the padded
  product, flattens it row-major, keeps the first 33564672 entries, and cuts from that vector, at fixed offsets, the
  three weight matrices and the three biases (each bias reshaped to one row); the three layers follow. Each launch's
  result array is a function of the arrays it staged (the four launch modules); here those staged arrays are read back
  through the stretches to the arguments, and the result buffer's final contents are computed.
-/
import proofs.«128955_j24953759990119_2_alg».proof.Proof.Gen.KernelIdeal.Frame
import proofs.«128955_j24953759990119_2_alg».proof.Proof.Region0
import proofs.«128955_j24953759990119_2_alg».proof.Proof.Region1
import proofs.«128955_j24953759990119_2_alg».proof.Proof.Region2
import proofs.«128955_j24953759990119_2_alg».proof.Proof.Region3
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Idealize.ShloMosaic.Pipeline (Dat)

/-! ## The data movement, as functions of the arguments -/

section Terms
variable (x : S4096x2048.Idx → EReal) (a1 : S5794x2897.Idx → EReal) (a2 : S2897x5794.Idx → EReal)

/-- The left factor padded to 6144 × 2944 with the conversion of the integer 0. -/
abbrev leftPadded : S6144x2944.Idx → EReal :=
  pad S6144x2944 ![0, 0] ![350, 47] ![0, 0] (truncf (F := Ideal) .bf16 a1 bitsLt_bf16_f32)
    (sitofp (F := Ideal) .bf16 (constantI S_ 32 0#32)) pads_S5794x2897_S6144x2944_03500_0470 h_S_
/-- The right factor padded to 2944 × 6144 likewise. -/
abbrev rightPadded : S2944x6144.Idx → EReal :=
  pad S2944x6144 ![0, 0] ![47, 350] ![0, 0] (truncf (F := Ideal) .bf16 a2 bitsLt_bf16_f32)
    (sitofp (F := Ideal) .bf16 (constantI S_ 32 0#32)) pads_S2897x5794_S2944x6144_0470_03500 h_S_
/-- The padded product. -/
abbrev paddedProduct : S6144x6144.Idx → EReal := MlpSpec.prod 6144 2944 6144 (leftPadded a1) (rightPadded a2)
/-- Its corner, flattened, the first 33564672 entries. -/
abbrev params : S33564672.Idx → EReal :=
  extractStridedSlice S33564672 ![0]
    (shapeCast S33570436 (extractStridedSlice S5794x5794 ![0, 0] (paddedProduct a1 a2) slices_S6144x6144_S5794x5794_0_0)
      shapeCasts_S5794x5794_S33570436) slices_S33570436_S33564672_0
abbrev weight1 : S4096x2048.Idx → EReal :=
  shapeCast S4096x2048 (extractStridedSlice S8388608 ![0] (params a1 a2) slices_S33564672_S8388608_0) shapeCasts_S8388608_S4096x2048
abbrev bias1 : S4096.Idx → EReal := extractStridedSlice S4096 ![8388608] (params a1 a2) slices_S33564672_S4096_8388608
abbrev weight2 : S4096x4096.Idx → EReal :=
  shapeCast S4096x4096 (extractStridedSlice S16777216 ![8392704] (params a1 a2) slices_S33564672_S16777216_8392704) shapeCasts_S16777216_S4096x4096
abbrev bias2 : S4096.Idx → EReal := extractStridedSlice S4096 ![25169920] (params a1 a2) slices_S33564672_S4096_25169920
abbrev weight3 : S2048x4096.Idx → EReal :=
  shapeCast S2048x4096 (extractStridedSlice S8388608 ![25174016] (params a1 a2) slices_S33564672_S8388608_25174016) shapeCasts_S8388608_S2048x4096
abbrev bias3 : S2048.Idx → EReal := extractStridedSlice S2048 ![33562624] (params a1 a2) slices_S33564672_S2048_33562624
abbrev hidden1 : S4096x4096.Idx → EReal :=
  MlpSpec.relu (MlpSpec.layer 4096 2048 4096 x (weight1 a1 a2) (shapeCast S1x4096 (bias1 a1 a2) shapeCasts_S4096_S1x4096))
abbrev hidden2 : S4096x4096.Idx → EReal :=
  MlpSpec.relu (MlpSpec.layer 4096 4096 4096 (hidden1 x a1 a2) (weight2 a1 a2) (shapeCast S1x4096 (bias2 a1 a2) shapeCasts_S4096_S1x4096))
/-- The kernel's result. -/
abbrev result : S4096x2048.Idx → EReal :=
  MlpSpec.layer 4096 4096 2048 (hidden2 x a1 a2) (weight3 a1 a2) (shapeCast S1x2048 (bias3 a1 a2) shapeCasts_S2048_S1x2048)

end Terms

variable (m : (ℓ : Loc nD τ sig) → Buf (Elt Ideal) ℓ) (ρ : Dev nD → PrngReg)

/-! ## Up to the first launch -/

theorem staged_left (c : Dev nD) : V4 m ρ c main_v1 = leftPadded (m ((c : Thread nD τ).loc main_arg1)) := by
  show StableHlo.after hostOps0_3 (StableHlo.after hostOps0_2 (StableHlo.after hostOps0_1 (StableHlo.after hostOps0 (W0 m ρ c))))
    (Proc.devRef .tc main_v1) = _
  after_results <;> rfl

theorem staged_right (c : Dev nD) : V4 m ρ c main_v3 = rightPadded (m ((c : Thread nD τ).loc main_arg2)) := by
  show StableHlo.after hostOps0_3 (StableHlo.after hostOps0_2 (StableHlo.after hostOps0_1 (StableHlo.after hostOps0 (W0 m ρ c))))
    (Proc.devRef .tc main_v3) = _
  after_results <;> rfl

theorem batch_at_first (c : Dev nD) : W4 m ρ c (Proc.devRef .tc main_arg0) = m ((c : Thread nD τ).loc main_arg0) := by
  show StableHlo.after hostOps0_3 (StableHlo.after hostOps0_2 (StableHlo.after hostOps0_1 (StableHlo.after hostOps0 (W0 m ρ c))))
    (Proc.devRef .tc main_arg0) = _
  after_results <;> rfl

/-- After the first launch its result array holds the padded product. -/
theorem product_left (c : Dev nD) : W5 m ρ c (Proc.devRef .tc main_v4)
    = paddedProduct (m ((c : Thread nD τ).loc main_arg1)) (m ((c : Thread nD τ).loc main_arg2)) := by
  refine (W5_arr m ρ c 2).trans ((LowRank.final (V4 m ρ) c).trans ?_)
  rw [staged_left, staged_right]

/-! ## From the first launch to the second: the parameters cut out of the product -/

theorem weight1_at (c : Dev nD) : W6 m ρ c (Proc.devRef .tc main_v9)
    = weight1 (m ((c : Thread nD τ).loc main_arg1)) (m ((c : Thread nD τ).loc main_arg2)) := by
  show StableHlo.after hostOps1 (W5 m ρ c) (Proc.devRef .tc main_v9) = _
  after_results
  rw [product_left]
  rfl

theorem biasrow1_at (c : Dev nD) : W6 m ρ c (Proc.devRef .tc main_v17)
    = shapeCast S1x4096 (bias1 (m ((c : Thread nD τ).loc main_arg1)) (m ((c : Thread nD τ).loc main_arg2))) shapeCasts_S4096_S1x4096 := by
  show StableHlo.after hostOps1 (W5 m ρ c) (Proc.devRef .tc main_v17) = _
  after_results
  rw [product_left]
  rfl

theorem weight2_at (c : Dev nD) : W6 m ρ c (Proc.devRef .tc main_v12)
    = weight2 (m ((c : Thread nD τ).loc main_arg1)) (m ((c : Thread nD τ).loc main_arg2)) := by
  show StableHlo.after hostOps1 (W5 m ρ c) (Proc.devRef .tc main_v12) = _
  after_results
  rw [product_left]
  rfl

theorem bias2_at (c : Dev nD) : W6 m ρ c (Proc.devRef .tc main_v13)
    = bias2 (m ((c : Thread nD τ).loc main_arg1)) (m ((c : Thread nD τ).loc main_arg2)) := by
  show StableHlo.after hostOps1 (W5 m ρ c) (Proc.devRef .tc main_v13) = _
  after_results
  rw [product_left]
  rfl

theorem weight3_at (c : Dev nD) : W6 m ρ c (Proc.devRef .tc main_v15)
    = weight3 (m ((c : Thread nD τ).loc main_arg1)) (m ((c : Thread nD τ).loc main_arg2)) := by
  show StableHlo.after hostOps1 (W5 m ρ c) (Proc.devRef .tc main_v15) = _
  after_results
  rw [product_left]
  rfl

theorem bias3_at (c : Dev nD) : W6 m ρ c (Proc.devRef .tc main_v16)
    = bias3 (m ((c : Thread nD τ).loc main_arg1)) (m ((c : Thread nD τ).loc main_arg2)) := by
  show StableHlo.after hostOps1 (W5 m ρ c) (Proc.devRef .tc main_v16) = _
  after_results
  rw [product_left]
  rfl

theorem batch_at_second (c : Dev nD) : W6 m ρ c (Proc.devRef .tc main_arg0) = m ((c : Thread nD τ).loc main_arg0) := by
  show StableHlo.after hostOps1 (W5 m ρ c) (Proc.devRef .tc main_arg0) = _
  after_results
  exact (W5_of_ne m ρ c main_arg0 (by decide)).trans (batch_at_first m ρ c)

/-- After the second launch its result array holds the first hidden layer. -/
theorem hidden1_left (c : Dev nD) : W7 m ρ c (Proc.devRef .tc main_v18)
    = hidden1 (m ((c : Thread nD τ).loc main_arg0)) (m ((c : Thread nD τ).loc main_arg1)) (m ((c : Thread nD τ).loc main_arg2)) := by
  refine (W7_arr m ρ c 3).trans ((LayerOne.final (V6 m ρ) c).trans ?_)
  show MlpSpec.relu (MlpSpec.layer 4096 2048 4096 (W6 m ρ c (Proc.devRef .tc main_arg0)) (W6 m ρ c (Proc.devRef .tc main_v9))
    (W6 m ρ c (Proc.devRef .tc main_v17))) = _
  rw [batch_at_second, weight1_at, biasrow1_at]

/-! ## From the second launch to the third -/

theorem hidden1_at (c : Dev nD) : W8 m ρ c (Proc.devRef .tc main_v18)
    = hidden1 (m ((c : Thread nD τ).loc main_arg0)) (m ((c : Thread nD τ).loc main_arg1)) (m ((c : Thread nD τ).loc main_arg2)) := by
  show StableHlo.after hostOps2 (W7 m ρ c) (Proc.devRef .tc main_v18) = _
  after_results
  exact hidden1_left m ρ c

theorem weight2_at_third (c : Dev nD) : W8 m ρ c (Proc.devRef .tc main_v12)
    = weight2 (m ((c : Thread nD τ).loc main_arg1)) (m ((c : Thread nD τ).loc main_arg2)) := by
  show StableHlo.after hostOps2 (W7 m ρ c) (Proc.devRef .tc main_v12) = _
  after_results
  exact (W7_of_ne m ρ c main_v12 (by decide)).trans (weight2_at m ρ c)

theorem biasrow2_at (c : Dev nD) : W8 m ρ c (Proc.devRef .tc main_v19)
    = shapeCast S1x4096 (bias2 (m ((c : Thread nD τ).loc main_arg1)) (m ((c : Thread nD τ).loc main_arg2))) shapeCasts_S4096_S1x4096 := by
  show StableHlo.after hostOps2 (W7 m ρ c) (Proc.devRef .tc main_v19) = _
  after_results
  rw [W7_of_ne m ρ c main_v13 (by decide), bias2_at]
  rfl

theorem weight3_at_third (c : Dev nD) : W8 m ρ c (Proc.devRef .tc main_v15)
    = weight3 (m ((c : Thread nD τ).loc main_arg1)) (m ((c : Thread nD τ).loc main_arg2)) := by
  show StableHlo.after hostOps2 (W7 m ρ c) (Proc.devRef .tc main_v15) = _
  after_results
  exact (W7_of_ne m ρ c main_v15 (by decide)).trans (weight3_at m ρ c)

theorem bias3_at_third (c : Dev nD) : W8 m ρ c (Proc.devRef .tc main_v16)
    = bias3 (m ((c : Thread nD τ).loc main_arg1)) (m ((c : Thread nD τ).loc main_arg2)) := by
  show StableHlo.after hostOps2 (W7 m ρ c) (Proc.devRef .tc main_v16) = _
  after_results
  exact (W7_of_ne m ρ c main_v16 (by decide)).trans (bias3_at m ρ c)

/-- After the third launch its result array holds the second hidden layer. -/
theorem hidden2_left (c : Dev nD) : W9 m ρ c (Proc.devRef .tc main_v20)
    = hidden2 (m ((c : Thread nD τ).loc main_arg0)) (m ((c : Thread nD τ).loc main_arg1)) (m ((c : Thread nD τ).loc main_arg2)) := by
  refine (W9_arr m ρ c 3).trans ((LayerTwo.final (V8 m ρ) c).trans ?_)
  show MlpSpec.relu (MlpSpec.layer 4096 4096 4096 (W8 m ρ c (Proc.devRef .tc main_v18)) (W8 m ρ c (Proc.devRef .tc main_v12))
    (W8 m ρ c (Proc.devRef .tc main_v19))) = _
  rw [hidden1_at, weight2_at_third, biasrow2_at]

/-! ## From the third launch to the fourth, and the result -/

theorem hidden2_at (c : Dev nD) : W10 m ρ c (Proc.devRef .tc main_v20)
    = hidden2 (m ((c : Thread nD τ).loc main_arg0)) (m ((c : Thread nD τ).loc main_arg1)) (m ((c : Thread nD τ).loc main_arg2)) := by
  show StableHlo.after hostOps3 (W9 m ρ c) (Proc.devRef .tc main_v20) = _
  after_results
  exact hidden2_left m ρ c

theorem weight3_at_fourth (c : Dev nD) : W10 m ρ c (Proc.devRef .tc main_v15)
    = weight3 (m ((c : Thread nD τ).loc main_arg1)) (m ((c : Thread nD τ).loc main_arg2)) := by
  show StableHlo.after hostOps3 (W9 m ρ c) (Proc.devRef .tc main_v15) = _
  after_results
  exact (W9_of_ne m ρ c main_v15 (by decide)).trans (weight3_at_third m ρ c)

theorem biasrow3_at (c : Dev nD) : W10 m ρ c (Proc.devRef .tc main_v21)
    = shapeCast S1x2048 (bias3 (m ((c : Thread nD τ).loc main_arg1)) (m ((c : Thread nD τ).loc main_arg2))) shapeCasts_S2048_S1x2048 := by
  show StableHlo.after hostOps3 (W9 m ρ c) (Proc.devRef .tc main_v21) = _
  after_results
  rw [W9_of_ne m ρ c main_v16 (by decide), bias3_at_third]
  rfl

/-- THE RESULT BUFFER at the last boundary: the three layers of the batch, with the parameters cut out of the
    padded product's corner. -/
theorem result_left (c : Dev nD) : W11 m ρ c (Proc.devRef .tc main_v22)
    = result (m ((c : Thread nD τ).loc main_arg0)) (m ((c : Thread nD τ).loc main_arg1)) (m ((c : Thread nD τ).loc main_arg2)) := by
  refine (W11_arr m ρ c 3).trans ((LayerThree.final (V10 m ρ) c).trans ?_)
  show MlpSpec.layer 4096 4096 2048 (W10 m ρ c (Proc.devRef .tc main_v20)) (W10 m ρ c (Proc.devRef .tc main_v15))
    (W10 m ρ c (Proc.devRef .tc main_v21)) = _
  rw [hidden2_at, weight3_at_fourth, biasrow3_at]

end Cert.KernelIdeal.Chain

end
-- ==== Proof.Bridge.lean ====
/-
  THE PADDED PRODUCT'S CORNER.

  Pad a 5794 × 2897 array with 350 rows and 47 columns of z, and a 2897 × 5794 array with 47 rows and 350 columns of z,
  where z = 0. At (p, q) with p, q < 5794 the product of the padded arrays is the sum over k < 2944 of
  left (p, k) · right (k, q); for k ≥ 2897 both factors are the padding, and 0 · 0 = 0, so the sum is the sum over
  k < 2897 of the unpadded product's terms: the corner of the padded product IS the product.
-/
import Idealize.ShloMosaic.Lib.KernelVsHost
import proofs.«128955_j24953759990119_2_alg».proof.Proof.LibDenseLayer

noncomputable section

open scoped BigOperators

namespace MlpSpec

open Idealize.ShloMosaic Idealize.ShloMosaic.ValueIdx

/-- The corner of the padded factors' product is the factors' product, when the padding value is 0. -/
theorem corner_eq (a1 : (⟨2, ![5794, 2897]⟩ : Shape).Idx → EReal) (a2 : (⟨2, ![2897, 5794]⟩ : Shape).Idx → EReal)
    (z1 z2 : (⟨0, ![]⟩ : Shape).Idx → EReal) (hz1 : z1 ix0 = 0) (hz2 : z2 ix0 = 0)
    (hp1 : (⟨2, ![5794, 2897]⟩ : Shape).Pads ![0, 0] ![350, 47] ![0, 0] ⟨2, ![6144, 2944]⟩)
    (hp2 : (⟨2, ![2897, 5794]⟩ : Shape).Pads ![0, 0] ![47, 350] ![0, 0] ⟨2, ![2944, 6144]⟩)
    (hu : 0 < (⟨0, ![]⟩ : Shape).numel)
    (hs : (⟨2, ![6144, 6144]⟩ : Shape).Slices ![0, 0] ⟨2, ![5794, 5794]⟩) :
    extractStridedSlice ⟨2, ![5794, 5794]⟩ ![0, 0]
        (prod 6144 2944 6144 (pad ⟨2, ![6144, 2944]⟩ ![0, 0] ![350, 47] ![0, 0] a1 z1 hp1 hu)
          (pad ⟨2, ![2944, 6144]⟩ ![0, 0] ![47, 350] ![0, 0] a2 z2 hp2 hu)) hs
      = prod 5794 2897 5794 a1 a2 := by
  funext i
  obtain ⟨p, q, rfl⟩ : ∃ (p : Fin 5794) (q : Fin 5794), i = ix2 p q := ⟨i 0, i 1, eq_ix2 i⟩
  have hp : p.val < 6144 := by have := p.isLt; omega
  have hq : q.val < 6144 := by have := q.isLt; omega
  rw [extractStridedSlice_apply ![0, 0] _ hs (ix2 p q) (ix2 (⟨p.val, hp⟩ : Fin 6144) (⟨q.val, hq⟩ : Fin 6144)) (fun a => by
    match a with
    | ⟨0, _⟩ => exact (Nat.zero_add _).symm
    | ⟨1, _⟩ => exact (Nat.zero_add _).symm)]
  unfold prod
  have key : ∀ f : Fin (2897 + 47) → EReal, (∀ k : Fin 47, f (Fin.natAdd 2897 k) = 0) →
      ∑ k, f k = ∑ k : Fin 2897, f (Fin.castAdd 47 k) := fun f hf => by
    rw [Fin.sum_univ_add, Finset.sum_eq_zero (fun k _ => hf k), add_zero]
  have hz1' : z1 (Shape.Idx.first hu) = 0 := (congrArg z1 (eq_ix0 _)).trans hz1
  have hz2' : z2 (Shape.Idx.first hu) = 0 := (congrArg z2 (eq_ix0 _)).trans hz2
  refine (key (fun k => pad ⟨2, ![6144, 2944]⟩ ![0, 0] ![350, 47] ![0, 0] a1 z1 hp1 hu (ix2 (⟨p.val, hp⟩ : Fin 6144) k)
      * pad ⟨2, ![2944, 6144]⟩ ![0, 0] ![47, 350] ![0, 0] a2 z2 hp2 hu (ix2 k (⟨q.val, hq⟩ : Fin 6144))) ?_).trans
    (Finset.sum_congr rfl fun k _ => ?_)
  · intro k
    show pad ⟨2, ![6144, 2944]⟩ ![0, 0] ![350, 47] ![0, 0] a1 z1 hp1 hu (ix2 (⟨p.val, hp⟩ : Fin 6144) (Fin.natAdd 2897 k)) * _ = 0
    rw [pad_apply_of_not_inside ![0, 0] ![350, 47] ![0, 0] a1 z1 hp1 hu _ (1 : Fin 2) (by
      show ¬(0 ≤ 2897 + k.val ∧ (2897 + k.val - 0) % (0 + 1) = 0 ∧ (2897 + k.val - 0) / (0 + 1) < 2897)
      omega), hz1', zero_mul]
  · show pad ⟨2, ![6144, 2944]⟩ ![0, 0] ![350, 47] ![0, 0] a1 z1 hp1 hu (ix2 (⟨p.val, hp⟩ : Fin 6144) (Fin.castAdd 47 k))
        * pad ⟨2, ![2944, 6144]⟩ ![0, 0] ![47, 350] ![0, 0] a2 z2 hp2 hu (ix2 (Fin.castAdd 47 k) (⟨q.val, hq⟩ : Fin 6144))
      = a1 (ix2 p k) * a2 (ix2 k q)
    rw [pad_apply_of_inside ![0, 0] ![350, 47] ![0, 0] a1 z1 hp1 hu _ (ix2 p k) (fun a => by
        match a with
        | ⟨0, _⟩ => show p.val = 0 + p.val * (0 + 1); omega
        | ⟨1, _⟩ => show k.val = 0 + k.val * (0 + 1); omega),
      pad_apply_of_inside ![0, 0] ![47, 350] ![0, 0] a2 z2 hp2 hu _ (ix2 k q) (fun a => by
        match a with
        | ⟨0, _⟩ => show k.val = 0 + k.val * (0 + 1); omega
        | ⟨1, _⟩ => show q.val = 0 + q.val * (0 + 1); omega)]

end MlpSpec

end
-- ==== Proof.RefStages.lean ====
/-
  The reference, layer by layer.

  The reference multiplies the two factors, flattens the product, cuts the weights and biases out of the flat vector,
  and runs the three layers as: batch times transposed weights, plus the bias broadcast over the rows, and (first two
  layers) the maximum with zero. Stage by stage these are the product, the layer and the clamp of the specification.
-/
import proofs.«128955_j24953759990119_2_alg».proof.Defs
import proofs.«128955_j24953759990119_2_alg».proof.Proof.Gen.ReferenceIdeal.Run
import proofs.«128955_j24953759990119_2_alg».proof.Proof.Gen.ReferenceIdeal.Read
import proofs.«128955_j24953759990119_2_alg».proof.Proof.Bridge

noncomputable section

namespace Cert.ReferenceIdeal.Stages

open Cert.ReferenceIdeal Cert.ReferenceIdeal.Gen Cert.ReferenceIdeal.Read Idealize.ShloMosaic

variable (x : S4096x2048.Idx → EReal) (a1 : S5794x2897.Idx → EReal) (a2 : S2897x5794.Idx → EReal)

/-- The reference's product of the factors. -/
theorem product_eq : val_main_v0 (F := Ideal) a1 a2 = MlpSpec.prod 5794 2897 5794 a1 a2 :=
  MlpSpec.dotGeneral_eq_prod _ rfl a1 a2

/-- The first layer. -/
theorem hidden1_eq (hs : S4096.ShapeCasts S1x4096) : val_main_v16 (F := Ideal) x a1 a2
    = MlpSpec.relu (MlpSpec.layer 4096 2048 4096 x (val_main_v3 (F := Ideal) a1 a2)
        (shapeCast S1x4096 (val_main_v4 (F := Ideal) a1 a2) hs)) := by
  unfold val_main_v16 val_main_v15 val_main_v12 val_main_v14 val_main_v13 val_main_v11 val_main_call0_v0 val_main_call0_cst
  rw [MlpSpec.hostRelu_eq, MlpSpec.hostLayer_eq dot_S4096x2048_S2048x4096_S4096x4096_1_0_0_1_n_n rfl x (val_main_v3 (F := Ideal) a1 a2) (val_main_v4 (F := Ideal) a1 a2) _ _ _ hs]

/-- The second layer. -/
theorem hidden2_eq (hs : S4096.ShapeCasts S1x4096) : val_main_v22 (F := Ideal) x a1 a2
    = MlpSpec.relu (MlpSpec.layer 4096 4096 4096 (val_main_v16 (F := Ideal) x a1 a2) (val_main_v6 (F := Ideal) a1 a2)
        (shapeCast S1x4096 (val_main_v7 (F := Ideal) a1 a2) hs)) := by
  unfold val_main_v22 val_main_v21 val_main_v18 val_main_v20 val_main_v19 val_main_v17 val_main_call1_v0 val_main_call1_cst
  rw [MlpSpec.hostRelu_eq, MlpSpec.hostLayer_eq dot_S4096x4096_S4096x4096_S4096x4096_1_0_0_1_n_n rfl (val_main_v16 (F := Ideal) x a1 a2) (val_main_v6 (F := Ideal) a1 a2)
    (val_main_v7 (F := Ideal) a1 a2) _ _ _ hs]

/-- The last layer: the reference's result. -/
theorem result_eq (hs : S2048.ShapeCasts S1x2048) : val_main_v27 (F := Ideal) x a1 a2
    = MlpSpec.layer 4096 4096 2048 (val_main_v22 (F := Ideal) x a1 a2) (val_main_v9 (F := Ideal) a1 a2)
        (shapeCast S1x2048 (val_main_v10 (F := Ideal) a1 a2) hs) := by
  unfold val_main_v27 val_main_v24 val_main_v26 val_main_v25 val_main_v23
  rw [MlpSpec.hostLayer_eq dot_S4096x4096_S4096x2048_S4096x2048_1_0_0_1_n_n rfl (val_main_v22 (F := Ideal) x a1 a2) (val_main_v9 (F := Ideal) a1 a2)
    (val_main_v10 (F := Ideal) a1 a2) _ _ _ hs]

end Cert.ReferenceIdeal.Stages

end
-- ==== Proof.ValueEq.lean ====
/-
  The two results are one function of the arguments.

  The kernel cuts its parameters out of the first 33564672 entries of the flattened corner of the PADDED product; the
  reference cuts them, at the same offsets, out of the flattened product itself. The corner of the padded product is
  the product (the padding is the conversion of the integer 0, which is 0, and 0 · 0 = 0), and a slice of a leading
  slice is a slice; so the three weight matrices and the three biases agree, and then so do the three layers.
-/
import proofs.«128955_j24953759990119_2_alg».proof.Proof.KernelValue
import proofs.«128955_j24953759990119_2_alg».proof.Proof.RefStages
import proofs.«128955_j24953759990119_2_alg».proof.Proof.Bridge

noncomputable section

namespace Cert.Proof.SameValue

open Idealize.ShloMosaic Idealize.ShloMosaic.ValueIdx
open Cert.KernelIdeal.Chain Cert.ReferenceIdeal.Read

variable (x : Cert.KernelIdeal.S4096x2048.Idx → EReal) (a1 : Cert.KernelIdeal.S5794x2897.Idx → EReal)
  (a2 : Cert.KernelIdeal.S2897x5794.Idx → EReal)

/-- The padding value: the integer 0 converted, which is 0. -/
theorem padding_zero : sitofp (F := Ideal) .bf16 (constantI Cert.KernelIdeal.S_ 32 0#32) ix0 = 0 := by
  show (((0#32 : BitVec 32).toInt : ℝ) : EReal) = 0
  simp

/-- The kernel's parameter vector is the leading slice of the reference's flattened product. -/
theorem params_eq : params a1 a2
    = extractStridedSlice Cert.KernelIdeal.S33564672 ![0] (val_main_v1 (F := Ideal) a1 a2)
        Cert.KernelIdeal.Facts₀.slices_S33570436_S33564672_0 := by
  unfold params paddedProduct leftPadded rightPadded val_main_v1
  rw [MlpSpec.corner_eq _ _ _ _ padding_zero padding_zero, Cert.ReferenceIdeal.Stages.product_eq]
  rfl

theorem weight1_eq : weight1 a1 a2 = val_main_v3 (F := Ideal) a1 a2 := by
  unfold weight1 val_main_v3 val_main_v2
  rw [params_eq, MlpSpec.slice_slice 0 _ _ _ Cert.ReferenceIdeal.Facts₀.slices_S33570436_S8388608_0]

theorem bias1_eq : bias1 a1 a2 = val_main_v4 (F := Ideal) a1 a2 := by
  unfold bias1 val_main_v4
  rw [params_eq, MlpSpec.slice_slice 8388608 _ _ _ Cert.ReferenceIdeal.Facts₀.slices_S33570436_S4096_8388608]

theorem weight2_eq : weight2 a1 a2 = val_main_v6 (F := Ideal) a1 a2 := by
  unfold weight2 val_main_v6 val_main_v5
  rw [params_eq, MlpSpec.slice_slice 8392704 _ _ _ Cert.ReferenceIdeal.Facts₀.slices_S33570436_S16777216_8392704]

theorem bias2_eq : bias2 a1 a2 = val_main_v7 (F := Ideal) a1 a2 := by
  unfold bias2 val_main_v7
  rw [params_eq, MlpSpec.slice_slice 25169920 _ _ _ Cert.ReferenceIdeal.Facts₀.slices_S33570436_S4096_25169920]

theorem weight3_eq : weight3 a1 a2 = val_main_v9 (F := Ideal) a1 a2 := by
  unfold weight3 val_main_v9 val_main_v8
  rw [params_eq, MlpSpec.slice_slice 25174016 _ _ _ Cert.ReferenceIdeal.Facts₀.slices_S33570436_S8388608_25174016]

theorem bias3_eq : bias3 a1 a2 = val_main_v10 (F := Ideal) a1 a2 := by
  unfold bias3 val_main_v10
  rw [params_eq, MlpSpec.slice_slice 33562624 _ _ _ Cert.ReferenceIdeal.Facts₀.slices_S33570436_S2048_33562624]

theorem hidden1_eq : hidden1 x a1 a2 = val_main_v16 (F := Ideal) x a1 a2 := by
  unfold hidden1
  rw [Cert.ReferenceIdeal.Stages.hidden1_eq x a1 a2 Cert.KernelIdeal.Facts₀.shapeCasts_S4096_S1x4096, weight1_eq, bias1_eq]

theorem hidden2_eq : hidden2 x a1 a2 = val_main_v22 (F := Ideal) x a1 a2 := by
  unfold hidden2
  rw [Cert.ReferenceIdeal.Stages.hidden2_eq x a1 a2 Cert.KernelIdeal.Facts₀.shapeCasts_S4096_S1x4096, hidden1_eq, weight2_eq, bias2_eq]

/-- The kernel's result is the reference's. -/
theorem result_eq : result x a1 a2 = val_main_v27 (F := Ideal) x a1 a2 := by
  unfold result
  rw [Cert.ReferenceIdeal.Stages.result_eq x a1 a2 Cert.KernelIdeal.Facts₀.shapeCasts_S2048_S1x2048, hidden2_eq, weight3_eq, bias3_eq]

end Cert.Proof.SameValue

end
-- ==== Proof.lean ====
/-
  The certificate: a low-rank matrix rebuilt as a product, its row-major flattening cut into the weights and biases
  of a three-layer perceptron, and the perceptron run on a batch.

  The kernel pads the two factors with zeros to tile-aligned sizes, multiplies them in one launch, cuts the corner
  back out, and runs each layer x · Wᵀ + b (the first two clamped below at 0) in a launch of its own; the reference
  does the same with host operations and no padding. On the extended reals the narrowing of operands on the way into
  each product is the identity, the zero padding adds 0 · 0 = 0 to each contraction, and tiling changes nothing: both
  programs end with the same array. No law used here needs the inputs finite, so the precondition is never opened.

  The three frames are the generated ones (the reference's is its generated run with the result dropped); the
  idealization rewrote nothing, so it is preserved trivially; the value claim sets the kernel's run with its result
  buffer read (KernelRun, KernelValue) beside the reference's generated run, and the two terms are one (ValueEq).
-/
import proofs.«128955_j24953759990119_2_alg».proof.Defs
import proofs.«128955_j24953759990119_2_alg».proof.Proof.Gen.Kernel
import proofs.«128955_j24953759990119_2_alg».proof.Proof.Gen.Kernel.Frame
import proofs.«128955_j24953759990119_2_alg».proof.Proof.Gen.KernelIdeal
import proofs.«128955_j24953759990119_2_alg».proof.Proof.Gen.KernelIdeal.Frame
import proofs.«128955_j24953759990119_2_alg».proof.Proof.Gen.ReferenceIdeal
import proofs.«128955_j24953759990119_2_alg».proof.Proof.Gen.ReferenceIdeal.Run
import proofs.«128955_j24953759990119_2_alg».proof.Proof.Gen.ReferenceIdeal.Read
import proofs.«128955_j24953759990119_2_alg».proof.Proof.Gen.Pre_finite_inputs
import proofs.«128955_j24953759990119_2_alg».proof.Proof.KernelRun
import proofs.«128955_j24953759990119_2_alg».proof.Proof.KernelValue
import proofs.«128955_j24953759990119_2_alg».proof.Proof.ValueEq
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the three layers of the batch, the parameters cut out of the factors' product. -/
theorem algebraic : Cert.algebraic_KernelIdeal_ReferenceIdeal := by
  intro m ρ m' ρ' _ hagree
  refine ⟨fun c => Cert.KernelIdeal.Chain.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Chain.result_left m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v27_eq, (hagree c).1, (hagree c).2.1, (hagree c).2.2]
    exact (Cert.Proof.SameValue.result_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
